-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S100000x64 .f32) (main_arg3 : FVec F S64x128 .f32) (main_arg4 : FVec F S128 .f32) (main_arg5 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩

abbrev nBuf : Space → Nat
  | .hbm => 32
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x64, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S100000x1, .f32⟩
  | .hbm, ⟨30, _⟩ => ⟨S1x128, .f32⟩
  | .hbm, ⟨31, _⟩ => ⟨S100000x128, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S4000x64_S64x128_S4000x128_1_0_0_1_n_n_wf : DotDims.WF S4000x64 S64x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf

abbrev win0_0 : Pipeline.Window sig grid0 :=
  Pipeline.Window.ofSpec (Memref.whole main_v13) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x64, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.SageSpec.lean ====
/-
  The mean-aggregation graph layer both programs compute, entry by entry, over the extended reals.

  With agg the per-node sum of neighbour features, deg the per-node neighbour count, h the node features, wl and wr the
  two weight matrices and b the bias, output entry (r, q) is

      ( Σ_k (agg[r, k] / max(deg[r], 1)) · wl[k, q]  +  Σ_k h[r, k] · wr[k, q] )  +  b[q].

  The one law used to join a kernel that multiplies by the reciprocal 1 / max(deg, 1) with a reference that divides by
  max(deg, 1): the divisor max(d, 1) is at least one, so it is never zero, and on the extended reals both the reciprocal
  and the quotient are then products with the inverse of the divisor — for every d, finite or not.
-/
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- Output entry (r, q) of the layer. -/
def entry (agg h : (⟨2, ![100000, 64]⟩ : Shape).Idx → EReal) (deg : (⟨1, ![100000]⟩ : Shape).Idx → EReal)
    (wl wr : (⟨2, ![64, 128]⟩ : Shape).Idx → EReal) (b : (⟨1, ![128]⟩ : Shape).Idx → EReal)
    (r : Fin 100000) (q : Fin 128) : EReal :=
  ((∑ k : Fin 64, Ideal.div (agg (ix2 r k)) (max (deg (ix1 r)) 1) * wl (ix2 k q))
    + ∑ k : Fin 64, h (ix2 r k) * wr (ix2 k q)) + b (ix1 q)

/-- The layer's whole output array. -/
def out (agg h : (⟨2, ![100000, 64]⟩ : Shape).Idx → EReal) (deg : (⟨1, ![100000]⟩ : Shape).Idx → EReal)
    (wl wr : (⟨2, ![64, 128]⟩ : Shape).Idx → EReal) (b : (⟨1, ![128]⟩ : Shape).Idx → EReal) :
    (⟨2, ![100000, 128]⟩ : Shape).Idx → EReal :=
  fun j => entry agg h deg wl wr b (j 0) (j 1)

theorem out_apply (agg h : (⟨2, ![100000, 64]⟩ : Shape).Idx → EReal) (deg : (⟨1, ![100000]⟩ : Shape).Idx → EReal)
    (wl wr : (⟨2, ![64, 128]⟩ : Shape).Idx → EReal) (b : (⟨1, ![128]⟩ : Shape).Idx → EReal)
    (r : Fin 100000) (q : Fin 128) : out agg h deg wl wr b (ix2 r q) = entry agg h deg wl wr b r q := rfl

/-- A divisor clamped below by one is not zero. -/
theorem max_one_ne_zero (d : EReal) : max d 1 ≠ 0 :=
  (lt_of_lt_of_le zero_lt_one (le_max_right d 1)).ne'

/-- Multiplying by the reciprocal of a divisor clamped below by one is dividing by it, on every extended real. -/
theorem mul_one_div_max (a d : EReal) : a * Ideal.div 1 (max d 1) = Ideal.div a (max d 1) := by
  rw [Ideal.div, if_neg (max_one_ne_zero d), Ideal.div, if_neg (max_one_ne_zero d), one_mul]

end Cert.Sage

end
-- ==== Proof.RefIsSage.lean ====
/-
  The reference, read entry by entry, is the layer of SageSpec.

  The reference clamps the neighbour counts below by one, broadcasts them along the feature axis, divides the
  aggregated features by them, multiplies the quotient and the node features by their weight matrices, adds the two
  products and adds the bias broadcast over the rows.  Each step reads at an index from its operands at an index, the
  two matrix products as sums over the contracted axis; composed, entry (r, q) is the layer's entry with the aggregated
  features and the counts being the reference's own gather / scatter-add stages.
-/
import proofs.«148230_j69724499083377_2_alg».proof.Proof.Gen.ReferenceIdeal.Read
import proofs.«148230_j69724499083377_2_alg».proof.Proof.SageSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The left operand of either matrix product at output (r, q), contraction position k: (r, k). -/
theorem lidx23 (r : Fin 100000) (q : Fin 128) (k : Fin 64) : lidx_main_v23 (ix2 r q) k = ix2 r k :=
  funext fun a => Fin.ext (by match a with | ⟨0, _⟩ => rfl | ⟨1, _⟩ => rfl)
theorem ridx23 (r : Fin 100000) (q : Fin 128) (k : Fin 64) : ridx_main_v23 (ix2 r q) k = ix2 k q :=
  funext fun a => Fin.ext (by match a with | ⟨0, _⟩ => rfl | ⟨1, _⟩ => rfl)
theorem lidx24 (r : Fin 100000) (q : Fin 128) (k : Fin 64) : lidx_main_v24 (ix2 r q) k = ix2 r k :=
  funext fun a => Fin.ext (by match a with | ⟨0, _⟩ => rfl | ⟨1, _⟩ => rfl)
theorem ridx24 (r : Fin 100000) (q : Fin 128) (k : Fin 64) : ridx_main_v24 (ix2 r q) k = ix2 k q :=
  funext fun a => Fin.ext (by match a with | ⟨0, _⟩ => rfl | ⟨1, _⟩ => rfl)
/-- The bias entry read at output (r, q): q. -/
theorem idx2627 (r : Fin 100000) (q : Fin 128) : idx_main_v26 (idx_main_v27 (ix2 r q)) = ix1 q :=
  funext fun a => Fin.ext (by match a with | ⟨0, _⟩ => rfl)
/-- The count read at (r, k) of the broadcast divisor: r. -/
theorem idx2021 (r : Fin 100000) (k : Fin 64) : idx_main_v20 (idx_main_v21 (ix2 r k)) = ix1 r :=
  funext fun a => Fin.ext (by match a with | ⟨0, _⟩ => rfl)

/-- The reference's result is the layer applied to its own aggregated features and counts. -/
theorem ref_eq (x1 : (⟨S2x1600000, .i32⟩ : BufTy).Contents (Elt Ideal)) (x2 : (⟨S100000x64, .f32⟩ : BufTy).Contents (Elt Ideal))
    (x3 : (⟨S64x128, .f32⟩ : BufTy).Contents (Elt Ideal)) (x4 : (⟨S128, .f32⟩ : BufTy).Contents (Elt Ideal))
    (x5 : (⟨S64x128, .f32⟩ : BufTy).Contents (Elt Ideal)) :
    val_main_v28 (F := Ideal) x1 x2 x3 x4 x5
      = Cert.Sage.out (val_main_v13 (F := Ideal) x1 x2) x2 (val_main_v17 (F := Ideal) x1) x3 x5 x4 := by
  funext j
  obtain ⟨r, q, rfl⟩ : ∃ (r : Fin 100000) (q : Fin 128), j = ix2 r q := ⟨j 0, j 1, eq_ix2 j⟩
  rw [Cert.Sage.out_apply, val_main_v28_apply, val_main_v25_apply, val_main_v23_apply, val_main_v24_apply,
    val_main_v27_apply, val_main_v26_apply, idx2627]
  unfold Cert.Sage.entry
  show ((∑ k : Fin 64, _) + (∑ k : Fin 64, _)) + _ = _
  refine congrArg₂ (· + ·) (congrArg₂ (· + ·) (Finset.sum_congr rfl fun k _ => ?_) (Finset.sum_congr rfl fun k _ => ?_)) rfl
  · rw [lidx23, ridx23, val_main_v22_apply, val_main_v21_apply, val_main_v20_apply, idx2021, val_main_v19_apply,
      val_main_v18_apply, val_main_cst_3_apply]
    show Ideal.div _ (max _ (Ideal.ofBits .f32 0x3F800000#32)) * _ = _
    rw [Ideal.ofBits_one_f32]
  · rw [lidx24, ridx24]

end Cert.ReferenceIdeal.RefValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdims.lean ====
/-
  Reusable lemmas: a row reduction of an [a, b] array kept as a column and broadcast back along the row.

  jnp's `max(s, axis=-1, keepdims=True)` and `sum(…, axis=-1, keepdims=True)` inside a kernel print as a lane reduction
  [a, b] → [a], a shape cast [a] → [a, 1], and a broadcast [a, 1] → [a, b].  Read over the extended reals at (r, j) the
  result is the fold of max (from the accumulator's value) or the sum over row r, whatever j:

      bmax s (r, j) = max_k s (r, k),      bsum s (r, j) = Σ_k s (r, k).

  The two layout steps are read by coordinates: an [a] vector cast to an [a, 1] column reads entry i at (i, 0), and an
  [a, 1] column broadcast to [a, b] reads the column's entry p at (p, c).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of an [a, b] array reduced along its rows, with the row position k put back, is (r, k). -/
theorem lift_row {a b : ℕ} (hr : (⟨2, ![a, b]⟩ : Shape).Reduces [1] ⟨1, ![a]⟩) (r : Fin a) (k : Fin b) :
    hr.lift (ix1 r) k = ix2 r k :=
  funext fun c => Fin.ext (by
    match c with
    | ⟨0, _⟩ => rfl
    | ⟨1, _⟩ => rfl)

/-- The row maximum kept as a column and broadcast back: at (r, j) the fold of max, from the accumulator's value, over
    row r. -/
theorem rowMax_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .maximumf [1] ⟨1, ![a]⟩ s acc hr hφ hacc) hsc) hb (ix2 r j)
      = (Finset.univ : Finset (Fin b)).fold max (Ideal.ofBits .f32 acc) (fun k => s (ix2 r k)) := by
  rw [broadcastTo_a1_ab_apply, shapeCast_a_a1_apply, Ideal.multiReduction_maximumf_single]
  refine congrArg (fun f => (Finset.univ : Finset (Fin b)).fold max (Ideal.ofBits .f32 acc) f) ?_
  exact funext fun k => congrArg s (lift_row hr r k)

/-- The row sum kept as a column and broadcast back: at (r, j) the sum over row r. -/
theorem rowSum_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .add [1] ⟨1, ![a]⟩ s acc hr hφ hacc) hsc) hb (ix2 r j)
      = ∑ k : Fin b, s (ix2 r k) := by
  rw [broadcastTo_a1_ab_apply, shapeCast_a_a1_apply, Ideal.multiReduction_add_single]
  exact Finset.sum_congr rfl fun k _ => congrArg s (lift_row hr r k)

end Cert.Keepdims

end
-- ==== Proof.KernelEntry.lean ====
/-
  The kernel body's arithmetic, read at one entry of its output block.

  The body loads a [4000, 64] block of the aggregated features, the matching [4000, 1] column of neighbour counts, a
  [4000, 64] block of node features, the two [64, 128] weight matrices and the [1, 128] bias row.  It forms the
  reciprocal 1 / max(count, 1), scales each aggregated row by it, multiplies the scaled block and the feature block by
  their weight matrices (two matrix products into zeros), adds the two products and adds the bias row to every row.
  Over the extended reals a change of float format is the identity, so entry (p, q) of the stored block is

      ( Σ_k (agg[p, k] · (1 / max(count[p, 0], 1))) · wl[k, q]  +  Σ_k h[p, k] · wr[k, q] )  +  bias[0, q].
-/
import proofs.«148230_j69724499083377_2_alg».proof.Proof.Gen.KernelIdeal.Skeleton
import proofs.«148230_j69724499083377_2_alg».proof.Proof.LibMatmulNN
import proofs.«148230_j69724499083377_2_alg».proof.Proof.LibKeepdims
import Idealize.ShloMosaic.Lib.ValueLayout
import Idealize.ShloMosaic.Lib.IdealHost

noncomputable section

namespace Cert.KernelIdeal.Entry

open Cert.KernelIdeal Cert.KernelIdeal.Gen Idealize.ShloMosaic Idealize.ShloMosaic.TcCoe Idealize.ShloMosaic.ValueIdx

/-- The stored block at entry (p, q). -/
theorem pay_apply (v0 : Vec Ideal S4000x1 .f32) (v6 v11 : Vec Ideal S4000x64 .f32) (v13 v15 : Vec Ideal S64x128 .f32)
    (v20 : Vec Ideal S1x128 .f32) (p : Fin 4000) (q : Fin 128) :
    k0_pay1 (F := Ideal) v0 v6 v11 v13 v15 v20 (ix2 p q)
      = ((∑ k : Fin 64, (v6 (ix2 p k) * Ideal.div 1 (max (v0 (ix2 p (0 : Fin 1))) 1)) * v13 (ix2 k q))
          + ∑ k : Fin 64, v11 (ix2 p k) * v15 (ix2 k q)) + v20 (ix2 (0 : Fin 1) q) := by
  unfold k0_pay1
  unfold Idealize.ShloMosaic.matmul
  rw [addf_apply, addf_apply, Cert.MatmulNN.matmul_zero_apply dot_S4000x64_S64x128_S4000x128_1_0_0_1_n_n rfl,
    Cert.MatmulNN.matmul_zero_apply dot_S4000x64_S64x128_S4000x128_1_0_0_1_n_n rfl,
    broadcastTo_1b_ab_apply, shapeCast_self]
  rw [shapeCast_self, shapeCast_self]
  simp only [truncf_apply, mulf_apply, Cert.Keepdims.broadcastTo_a1_ab_apply, divf_apply, broadcast_apply, maximumf_apply,
    Ideal.ofBits_def, Ideal.ofBits_one_f32]

end Cert.KernelIdeal.Entry

end
-- ==== Proof.SageKernelForm.lean ====
/-
  The layer as the kernel spells it, and that it is the layer of SageSpec.

  The kernel receives the neighbour counts as an [N, 1] column and the bias as a [1, 128] row, and scales the
  aggregated features by the reciprocal 1 / max(count, 1) instead of dividing by max(count, 1).  When the column holds
  the counts and the row holds the bias, entry by entry the two spellings agree: the reciprocal law of SageSpec under
  each term of the first sum.
-/
import proofs.«148230_j69724499083377_2_alg».proof.Proof.SageSpec

noncomputable section

namespace Cert.Sage

open Idealize.ShloMosaic Idealize.ShloMosaic.ValueIdx

/-- Output entry (r, q) in the kernel's spelling: counts as a column, bias as a row, a product with the reciprocal. -/
def kernelEntry (agg h : (⟨2, ![100000, 64]⟩ : Shape).Idx → EReal) (cnt : (⟨2, ![100000, 1]⟩ : Shape).Idx → EReal)
    (wl wr : (⟨2, ![64, 128]⟩ : Shape).Idx → EReal) (brow : (⟨2, ![1, 128]⟩ : Shape).Idx → EReal)
    (r : Fin 100000) (q : Fin 128) : EReal :=
  ((∑ k : Fin 64, (agg (ix2 r k) * Ideal.div 1 (max (cnt (ix2 r (0 : Fin 1))) 1)) * wl (ix2 k q))
    + ∑ k : Fin 64, h (ix2 r k) * wr (ix2 k q)) + brow (ix2 (0 : Fin 1) q)

/-- The whole output array in the kernel's spelling. -/
def kernelOut (agg h : (⟨2, ![100000, 64]⟩ : Shape).Idx → EReal) (cnt : (⟨2, ![100000, 1]⟩ : Shape).Idx → EReal)
    (wl wr : (⟨2, ![64, 128]⟩ : Shape).Idx → EReal) (brow : (⟨2, ![1, 128]⟩ : Shape).Idx → EReal) :
    (⟨2, ![100000, 128]⟩ : Shape).Idx → EReal :=
  fun j => kernelEntry agg h cnt wl wr brow (j 0) (j 1)

theorem kernelOut_apply (agg h : (⟨2, ![100000, 64]⟩ : Shape).Idx → EReal) (cnt : (⟨2, ![100000, 1]⟩ : Shape).Idx → EReal)
    (wl wr : (⟨2, ![64, 128]⟩ : Shape).Idx → EReal) (brow : (⟨2, ![1, 128]⟩ : Shape).Idx → EReal)
    (r : Fin 100000) (q : Fin 128) : kernelOut agg h cnt wl wr brow (ix2 r q) = kernelEntry agg h cnt wl wr brow r q := rfl

/-- With the column holding the counts and the row holding the bias, the kernel's spelling is the layer. -/
theorem kernelOut_eq_out (agg h : (⟨2, ![100000, 64]⟩ : Shape).Idx → EReal) (cnt : (⟨2, ![100000, 1]⟩ : Shape).Idx → EReal)
    (deg : (⟨1, ![100000]⟩ : Shape).Idx → EReal) (wl wr : (⟨2, ![64, 128]⟩ : Shape).Idx → EReal)
    (brow : (⟨2, ![1, 128]⟩ : Shape).Idx → EReal) (b : (⟨1, ![128]⟩ : Shape).Idx → EReal)
    (hc : ∀ r : Fin 100000, cnt (ix2 r (0 : Fin 1)) = deg (ix1 r)) (hb : ∀ q : Fin 128, brow (ix2 (0 : Fin 1) q) = b (ix1 q)) :
    kernelOut agg h cnt wl wr brow = out agg h deg wl wr b := by
  funext j
  obtain ⟨r, q, rfl⟩ : ∃ (r : Fin 100000) (q : Fin 128), j = ix2 r q := ⟨j 0, j 1, eq_ix2 j⟩
  rw [kernelOut_apply, out_apply]
  unfold kernelEntry entry
  rw [hb]
  simp only [hc, mul_one_div_max]

end Cert.Sage

end
-- ==== Proof.KernelBlockIndex.lean ====
/-
  Where the kernel's blocks sit in their arrays.

  The grid has 25 points.  At point t the windows of the aggregated features, of the count column, of the node features
  and of the output hold rows 4000·t … 4000·t + 3999 of their arrays; the two weight matrices and the bias row are one
  block each, the same at every point.  So entry (p, ·) of a row block at t is entry (4000·t + p, ·) of its array, and
  every row r of the output lies in the block of point r / 4000: the 25 output blocks cover the array.
-/
import proofs.«148230_j69724499083377_2_alg».proof.Proof.Gen.KernelIdeal.Points
import proofs.«148230_j69724499083377_2_alg».proof.Proof.Gen.KernelIdeal.Launch
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The block indices over the grid: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the block at point t is row 4000·t + p of the array. -/
def rowOf (t : Fin cfg0.N) (p : Fin 4000) : Fin 100000 :=
  ⟨t.val * 4000 + p.val, by
    have ht : t.val < grid0.N := t.isLt
    rw [N_0] at ht
    have hp := p.isLt
    omega⟩

/-- Where the blocks' entries sit in their arrays. -/
theorem emb0 (t : Fin cfg0.N) (p : Fin 4000) (k : Fin 64) : ((cfg0.win 0).blk t).view.emb (ix2 p k) = ix2 (rowOf t p) k := by
  obtain ⟨e00, e01, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 64 + 1 * k.val = k.val; omega
theorem emb1 (t : Fin cfg0.N) (p : Fin 4000) : ((cfg0.win 1).blk t).view.emb (ix2 p (0 : Fin 1)) = ix2 (rowOf t p) (0 : Fin 1) := by
  obtain ⟨-, -, e10, e11, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 1 + 1 * 0 = 0; omega
theorem emb2 (t : Fin cfg0.N) (p : Fin 4000) (k : Fin 64) : ((cfg0.win 2).blk t).view.emb (ix2 p k) = ix2 (rowOf t p) k := by
  obtain ⟨-, -, -, -, e20, e21, -⟩ := idx_facts t
  funext a; apply Fin.ext
  match a with
  | ⟨0, _⟩ => show win0_2.index t (0 : Fin 2) * 4000 + 1 * p.val = t.val * 4000 + p.val; omega
  | ⟨1, _⟩ => show win0_2.index t (1 : Fin 2) * 64 + 1 * k.val = k.val; omega
theorem emb3 (t : Fin cfg0.N) (k : Fin 64) (q : Fin 128) : ((cfg0.win 3).blk t).view.emb (ix2 k q) = ix2 k q := by
  obtain ⟨-, -, -, -, -, -, e30, e31, -⟩ := idx_facts t
  funext a; apply Fin.ext
  match a with
  | ⟨0, _⟩ => show win0_3.index t (0 : Fin 2) * 64 + 1 * k.val = k.val; omega
  | ⟨1, _⟩ => show win0_3.index t (1 : Fin 2) * 128 + 1 * q.val = q.val; omega
theorem emb4 (t : Fin cfg0.N) (k : Fin 64) (q : Fin 128) : ((cfg0.win 4).blk t).view.emb (ix2 k q) = ix2 k q := by
  obtain ⟨-, -, -, -, -, -, -, -, e40, e41, -⟩ := idx_facts t
  funext a; apply Fin.ext
  match a with
  | ⟨0, _⟩ => show win0_4.index t (0 : Fin 2) * 64 + 1 * k.val = k.val; omega
  | ⟨1, _⟩ => show win0_4.index t (1 : Fin 2) * 128 + 1 * q.val = q.val; omega
theorem emb5 (t : Fin cfg0.N) (q : Fin 128) : ((cfg0.win 5).blk t).view.emb (ix2 (0 : Fin 1) q) = ix2 (0 : Fin 1) q := by
  obtain ⟨-, -, -, -, -, -, -, -, -, -, e50, e51, -⟩ := idx_facts t
  funext a; apply Fin.ext
  match a with
  | ⟨0, _⟩ => show win0_5.index t (0 : Fin 2) * 1 + 1 * 0 = 0; omega
  | ⟨1, _⟩ => show win0_5.index t (1 : Fin 2) * 128 + 1 * q.val = q.val; omega
theorem emb6 (t : Fin cfg0.N) (p : Fin 4000) (q : Fin 128) : ((cfg0.win 6).blk t).view.emb (ix2 p q) = ix2 (rowOf t p) q := by
  obtain ⟨-, -, -, -, -, -, -, -, -, -, -, -, e60, e61⟩ := idx_facts t
  funext a; apply Fin.ext
  match a with
  | ⟨0, _⟩ => show win0_6.index t (0 : Fin 2) * 4000 + 1 * p.val = t.val * 4000 + p.val; omega
  | ⟨1, _⟩ => show win0_6.index t (1 : Fin 2) * 128 + 1 * q.val = q.val; omega

/-- A row block read at (p, ·) is its array at row 4000·t + p; the weight and bias blocks are their arrays. -/
theorem read_blk0 (A : S100000x64.Idx → EReal) (t : Fin cfg0.N) (p : Fin 4000) (k : Fin 64) :
    ((cfg0.win 0).blk t).view.read (Elt Ideal) A (ix2 p k) = A (ix2 (rowOf t p) k) := by
  show A (((cfg0.win 0).blk t).view.emb (ix2 p k)) = _
  rw [emb0]
theorem read_blk1 (A : S100000x1.Idx → EReal) (t : Fin cfg0.N) (p : Fin 4000) :
    ((cfg0.win 1).blk t).view.read (Elt Ideal) A (ix2 p (0 : Fin 1)) = A (ix2 (rowOf t p) (0 : Fin 1)) := by
  show A (((cfg0.win 1).blk t).view.emb (ix2 p (0 : Fin 1))) = _
  rw [emb1]
theorem read_blk2 (A : S100000x64.Idx → EReal) (t : Fin cfg0.N) (p : Fin 4000) (k : Fin 64) :
    ((cfg0.win 2).blk t).view.read (Elt Ideal) A (ix2 p k) = A (ix2 (rowOf t p) k) := by
  show A (((cfg0.win 2).blk t).view.emb (ix2 p k)) = _
  rw [emb2]
theorem read_blk3 (A : S64x128.Idx → EReal) (t : Fin cfg0.N) (k : Fin 64) (q : Fin 128) :
    ((cfg0.win 3).blk t).view.read (Elt Ideal) A (ix2 k q) = A (ix2 k q) := by
  show A (((cfg0.win 3).blk t).view.emb (ix2 k q)) = _
  rw [emb3]
theorem read_blk4 (A : S64x128.Idx → EReal) (t : Fin cfg0.N) (k : Fin 64) (q : Fin 128) :
    ((cfg0.win 4).blk t).view.read (Elt Ideal) A (ix2 k q) = A (ix2 k q) := by
  show A (((cfg0.win 4).blk t).view.emb (ix2 k q)) = _
  rw [emb4]
theorem read_blk5 (A : S1x128.Idx → EReal) (t : Fin cfg0.N) (q : Fin 128) :
    ((cfg0.win 5).blk t).view.read (Elt Ideal) A (ix2 (0 : Fin 1) q) = A (ix2 (0 : Fin 1) q) := by
  show A (((cfg0.win 5).blk t).view.emb (ix2 (0 : Fin 1) q)) = _
  rw [emb5]
theorem read_blk6 (A : S100000x128.Idx → EReal) (t : Fin cfg0.N) (p : Fin 4000) (q : Fin 128) :
    ((cfg0.win 6).blk t).view.read (Elt Ideal) A (ix2 p q) = A (ix2 (rowOf t p) q) := by
  show A (((cfg0.win 6).blk t).view.emb (ix2 p q)) = _
  rw [emb6]

/-- An index is in point t's block iff its row is among the block's 4000 rows. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v20).slice (win0_6.rect t)).set ↔ _
  rw [View.set_slice_whole, Rect.mem_set_unit]
  exact Iff.rfl

/-- Every index of the output lies in the block of the point its row divided by 4000 names. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 25 := N_0
  let t : Fin cfg0.N := ⟨(i 0).val / 4000, by show (i 0).val / 4000 < grid0.N; omega⟩
  obtain ⟨-, -, -, -, -, -, -, -, -, -, -, -, e60, e61⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

end Cert.KernelIdeal.Blocks

end
-- ==== Proof.KernelBlocks.lean ====
/-
  From the kernel's blocks to its whole output array.

  At grid point t the body's loads are the blocks of the arrays as the region finds them, so by the body's arithmetic
  read at an entry, entry (p, q) of the block written at t is entry (4000·t + p, q) of the layer in the kernel's
  spelling applied to those arrays.  The 25 blocks cover the output, so after the run the output array is that function
  whole.
-/
import proofs.«148230_j69724499083377_2_alg».proof.Proof.Gen.KernelIdeal.Value
import proofs.«148230_j69724499083377_2_alg».proof.Proof.KernelEntry
import proofs.«148230_j69724499083377_2_alg».proof.Proof.SageKernelForm
import proofs.«148230_j69724499083377_2_alg».proof.Proof.KernelBlockIndex

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Each input block's entry is the entry of the array the region finds, at that place. -/
theorem blk0 (c : Dev nD) (t : Fin cfg0.N) (p : Fin 4000) (k : Fin 64) :
    iblk m c 0 t (ix2 p k) = V m c main_v13 (ix2 (rowOf t p) k) := read_blk0 (V m c main_v13) t p k
theorem blk1 (c : Dev nD) (t : Fin cfg0.N) (p : Fin 4000) :
    iblk m c 1 t (ix2 p (0 : Fin 1)) = V m c main_v18 (ix2 (rowOf t p) (0 : Fin 1)) := read_blk1 (V m c main_v18) t p
theorem blk2 (c : Dev nD) (t : Fin cfg0.N) (p : Fin 4000) (k : Fin 64) :
    iblk m c 2 t (ix2 p k) = V m c main_arg2 (ix2 (rowOf t p) k) := read_blk2 (V m c main_arg2) t p k
theorem blk3 (c : Dev nD) (t : Fin cfg0.N) (k : Fin 64) (q : Fin 128) :
    iblk m c 3 t (ix2 k q) = V m c main_arg3 (ix2 k q) := read_blk3 (V m c main_arg3) t k q
theorem blk4 (c : Dev nD) (t : Fin cfg0.N) (k : Fin 64) (q : Fin 128) :
    iblk m c 4 t (ix2 k q) = V m c main_arg5 (ix2 k q) := read_blk4 (V m c main_arg5) t k q
theorem blk5 (c : Dev nD) (t : Fin cfg0.N) (q : Fin 128) :
    iblk m c 5 t (ix2 (0 : Fin 1) q) = V m c main_v19 (ix2 (0 : Fin 1) q) := read_blk5 (V m c main_v19) t q

/-- The layer in the kernel's spelling, of the arrays as the region finds them. -/
def G (c : Dev nD) : S100000x128.Idx → EReal :=
  Cert.Sage.kernelOut (V m c main_v13) (V m c main_arg2) (V m c main_v18) (V m c main_arg3) (V m c main_arg5) (V m c main_v19)

theorem G_apply (c : Dev nD) (r : Fin 100000) (q : Fin 128) :
    G m c (ix2 r q) = Cert.Sage.kernelEntry (V m c main_v13) (V m c main_arg2) (V m c main_v18) (V m c main_arg3)
      (V m c main_arg5) (V m c main_v19) r q := rfl

/-- The block written at point t, entry (p, q): the layer's entry (4000·t + p, q). -/
theorem block_entry (c : Dev nD) (t : Fin cfg0.N) (p : Fin 4000) (q : Fin 128) :
    k0_pay1 (F := Ideal) (iblk m c 1 t) (iblk m c 0 t) (iblk m c 2 t) (iblk m c 3 t) (iblk m c 4 t) (iblk m c 5 t) (ix2 p q)
      = G m c (ix2 (rowOf t p) q) := by
  rw [Cert.KernelIdeal.Entry.pay_apply, G_apply]
  unfold Cert.Sage.kernelEntry
  refine congrArg₂ (· + ·) (congrArg₂ (· + ·) (Finset.sum_congr rfl fun k _ => ?_) (Finset.sum_congr rfl fun k _ => ?_)) ?_
  · rw [blk0, blk1, blk3]
  · rw [blk2, blk4]
  · rw [blk5]

/-- What point t writes back is block t of that function. -/
theorem flushed_eq (c : Dev nD) (t : Fin cfg0.N) :
    (dats m 0 c).flushed 6 t = ((cfg0.win 6).blk t).view.read (Elt Ideal) (G m c) := by
  rw [Cert.KernelIdeal.Value.flushed6]
  unfold out0_6
  rw [View.canon_unit_zero hz]
  simp only [View.ld_unit_zero (S := S4000x1) hz, View.ld_unit_zero (S := S4000x64) hz, View.ld_unit_zero (S := S64x128) hz,
    View.ld_unit_zero (S := S1x128) hz]
  funext y
  obtain ⟨p, q, rfl⟩ : ∃ (p : Fin 4000) (q : Fin 128), y = ix2 p q := ⟨y 0, y 1, eq_ix2 y⟩
  rw [read_blk6 (G m c) t p q, ← block_entry m c t p q]
  generalize k0_pay1 (F := Ideal) (iblk m c 1 t) (iblk m c 0 t) (iblk m c 2 t) (iblk m c 3 t) (iblk m c 4 t) (iblk m c 5 t) = X
  rfl

/-- The output array after the run is the layer, in the kernel's spelling, of the arrays as the region finds them. -/
theorem final (c : Dev nD) : (dats m 0 c).arrAt 6 cfg0.N = G m c :=
  (dats m 0 c).arrAt_eq_of_cover 6 (G m c) (fun t _ => flushed_eq m c t) cover

end Cert.KernelIdeal.Blocks

end
-- ==== Proof.KernelHostArrays.lean ====
/-
  What the region finds in the arrays the host wrote before it.

  Before the region the host gathers the source rows of the node features, scatter-adds them into zeros by destination
  (the aggregated features), scatter-adds ones into zeros by destination (the neighbour counts), reshapes the counts to
  an [N, 1] column and the bias to a [1, 128] row.  These are the same operations, on the same arguments, as the first
  stages of the reference, so the aggregated features and the counts the region finds are the reference's own stages
  of the kernel's arguments; the column at (r, 0) is the count of r and the row at (0, q) is the bias at q.
-/
import proofs.«148230_j69724499083377_2_alg».proof.Proof.Gen.KernelIdeal.Frame
import proofs.«148230_j69724499083377_2_alg».proof.Proof.Gen.ReferenceIdeal.Read
import proofs.«148230_j69724499083377_2_alg».proof.Proof.LibKeepdims
import Idealize.ShloMosaic.Lib.StableHlo.Run
import Idealize.ShloMosaic.Lib.ValueLayout

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated features the region finds are the reference's scatter-add stage of the kernel's arguments. -/
theorem agg_eq (c : Dev nD) :
    (V m c main_v13 : S100000x64.Idx → EReal)
      = Cert.ReferenceIdeal.Read.val_main_v13 (F := Ideal) (m ((c : Thread nD τ).loc main_arg1)) (m ((c : Thread nD τ).loc main_arg2)) := by
  dsimp only [Gen.V, Gen.hostOps0]
  after_results
  rfl

/-- The count column the region finds is the reference's count stage, reshaped to a column. -/
theorem cnt_eq (c : Dev nD) :
    (V m c main_v18 : S100000x1.Idx → EReal)
      = shapeCast S100000x1 (Cert.ReferenceIdeal.Read.val_main_v17 (F := Ideal) (m ((c : Thread nD τ).loc main_arg1)))
          shapeCasts_S100000_S100000x1 := by
  dsimp only [Gen.V, Gen.hostOps0]
  after_results
  rfl

/-- The bias row the region finds is the bias argument, reshaped to a row. -/
theorem bias_eq (c : Dev nD) :
    (V m c main_v19 : S1x128.Idx → EReal)
      = shapeCast S1x128 (m ((c : Thread nD τ).loc main_arg4)) shapeCasts_S128_S1x128 := by
  dsimp only [Gen.V, Gen.hostOps0]
  after_results
  rfl

/-- The count column at (r, 0) is the count of r. -/
theorem cnt_col (c : Dev nD) (r : Fin 100000) :
    V m c main_v18 (ix2 r (0 : Fin 1))
      = Cert.ReferenceIdeal.Read.val_main_v17 (F := Ideal) (m ((c : Thread nD τ).loc main_arg1)) (ix1 r) := by
  rw [cnt_eq]
  exact Cert.Keepdims.shapeCast_a_a1_apply _ _ r 0

/-- The bias row at (0, q) is the bias at q. -/
theorem bias_row (c : Dev nD) (q : Fin 128) :
    V m c main_v19 (ix2 (0 : Fin 1) q) = m ((c : Thread nD τ).loc main_arg4) (ix1 q) := by
  rw [bias_eq]
  exact shapeCast_a_1a_apply _ _ 0 q

end Cert.KernelIdeal.HostArrays

end
-- ==== Proof.lean ====
/-
  A graph layer with mean aggregation: the Pallas kernel against its jnp reference, equal over the extended reals.

  Both programs begin with the same host operations on the same arguments: the source rows of the node features are
  gathered, scatter-added into zeros by destination node (agg) and, with ones in place of the rows, counted (deg).  The
  reference then forms  (agg / max(deg, 1)) · wl + h · wr + b  with two whole matrix products.  The kernel reshapes deg
  to a column and b to a row and runs one region over 25 row blocks of 4000 nodes; its body forms
  (agg · (1 / max(deg, 1))) · wl + h · wr + b  on the block, the matrix products on the matrix unit into zeros.

  Over the extended reals a change of float format is the identity, a matrix product of either kind is the plain sum
  over the contracted axis, and the blocks are restrictions of one whole-array function, so both results are the layer
  of SageSpec entry by entry.  The only law between the two spellings is  a · (1 / y) = a / y  at  y = max(d, 1) ≥ 1,
  which holds for every extended real a and d (the divisor is never zero); no finiteness of the inputs is used.

  The modules: SageSpec (the layer and the law), SageKernelForm (the kernel's spelling is the layer), RefIsSage (the
  reference read entry by entry), KernelEntry (the body's arithmetic at an entry), KernelBlockIndex and KernelBlocks
  (from blocks to the whole array), KernelHostArrays (what the host wrote before the region).  The three frames are the
  generated ones; the idealization rewrote nothing, so its conjunct is trivial.
-/
import proofs.«148230_j69724499083377_2_alg».proof.Defs
import proofs.«148230_j69724499083377_2_alg».proof.Proof.Gen.Kernel
import proofs.«148230_j69724499083377_2_alg».proof.Proof.Gen.Kernel.Skeleton
import proofs.«148230_j69724499083377_2_alg».proof.Proof.Gen.Kernel.Launch
import proofs.«148230_j69724499083377_2_alg».proof.Proof.Gen.Kernel.Points
import proofs.«148230_j69724499083377_2_alg».proof.Proof.Gen.Kernel.Frame
import proofs.«148230_j69724499083377_2_alg».proof.Proof.Gen.KernelIdeal
import proofs.«148230_j69724499083377_2_alg».proof.Proof.Gen.KernelIdeal.Skeleton
import proofs.«148230_j69724499083377_2_alg».proof.Proof.Gen.KernelIdeal.Launch
import proofs.«148230_j69724499083377_2_alg».proof.Proof.Gen.KernelIdeal.Points
import proofs.«148230_j69724499083377_2_alg».proof.Proof.Gen.KernelIdeal.Frame
import proofs.«148230_j69724499083377_2_alg».proof.Proof.Gen.ReferenceIdeal
import proofs.«148230_j69724499083377_2_alg».proof.Proof.Gen.Pre_finite_inputs
import proofs.«148230_j69724499083377_2_alg».proof.Proof.Gen.KernelIdeal.Value
import proofs.«148230_j69724499083377_2_alg».proof.Proof.Gen.ReferenceIdeal.Run
import proofs.«148230_j69724499083377_2_alg».proof.Proof.Gen.ReferenceIdeal.Read
import proofs.«148230_j69724499083377_2_alg».proof.Proof.RefIsSage
import proofs.«148230_j69724499083377_2_alg».proof.Proof.KernelBlocks
import proofs.«148230_j69724499083377_2_alg».proof.Proof.KernelHostArrays
import Idealize.ShloMosaic.Adequacy
import Idealize.ShloMosaic.Init

noncomputable section

namespace Cert.Proof

open Idealize.ShloMosaic Idealize.ShloMosaic.TcCoe Idealize.SL.Sem

/-! ## The kernel's run, with its result named as the layer of its arguments -/

section KernelRun

open Cert.KernelIdeal Cert.KernelIdeal.Gen

variable (m : (ℓ : Loc nD τ sig) → Buf (Elt Ideal) ℓ) (ρ : Dev nD → PrngReg)

/-- The layer of the kernel's arguments, the aggregated features and the counts being the shared host stages. -/
def layer (c : Dev nD) : S100000x128.Idx → EReal :=
  Cert.Sage.out
    (Cert.ReferenceIdeal.Read.val_main_v13 (F := Ideal) (m ((c : Thread nD τ).loc main_arg1)) (m ((c : Thread nD τ).loc main_arg2)))
    (m ((c : Thread nD τ).loc main_arg2))
    (Cert.ReferenceIdeal.Read.val_main_v17 (F := Ideal) (m ((c : Thread nD τ).loc main_arg1)))
    (m ((c : Thread nD τ).loc main_arg3)) (m ((c : Thread nD τ).loc main_arg5)) (m ((c : Thread nD τ).loc main_arg4))

/-- The whole-array function of the blocks, of the arrays as the region finds them, is the layer of the arguments. -/
theorem blocks_eq_layer (c : Dev nD) : Cert.KernelIdeal.Blocks.G m c = layer m c := by
  unfold Cert.KernelIdeal.Blocks.G layer
  rw [Cert.KernelIdeal.HostArrays.agg_eq m c, V_main_arg2 m c, V_main_arg3 m c, V_main_arg5 m c]
  exact Cert.Sage.kernelOut_eq_out _ _ _ _ _ _ _ _ (Cert.KernelIdeal.HostArrays.cnt_col m c)
    (Cert.KernelIdeal.HostArrays.bias_row m c)

/-- Every weakly fair execution of the kernel ends with its result at the layer of its arguments, the arguments kept. -/
theorem kernel_run : θ_run defs (onTc (τ := τ) (main (F := Ideal))) ⟨m, fun _ => 0, ρ⟩ fun r => ∀ c : Dev nD,
      r.2.mem ((c : Thread nD τ).loc main_v20) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans ((Cert.KernelIdeal.Blocks.final m c).trans (blocks_eq_layer m c)), (h c).2⟩)
    (Cert.KernelIdeal.Value.run_blocks m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments the kernel ends at the layer of its arguments, and the reference at the
    layer of its own, which are the same arguments. -/
theorem algebraic : Cert.algebraic_KernelIdeal_ReferenceIdeal := by
  intro m ρ m' ρ' _ hagree
  refine ⟨fun c => layer m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.ref_eq,
    (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
